-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x40 : Shape := ⟨2, ![4096, 40]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x40 : S_.BroadcastsInDim S4096x40 (![] : Fin 0 → Fin S4096x40.rank)
  reducesTo_S4096x40_S_d0_1 : S4096x40.ReducesTo [0, 1] S_
  reducesTo_S_S_d : S_.ReducesTo [] S_

variable [Facts]

def fn_part1 {F : FTy → Type} [FloatOps F] (main_arg4 : FVec F S_ .f32) (main_v13 : IVec S_ 1) (main_v16 : IVec S4096x40 1) : IVec S_ 1 :=
  let main_c_5 : IVec S_ 1 := constantI S_ 1 1#1
  let main_v17 : IVec S_ 1 := (fun x v => Host.reduce IntOp.andi x v reducesTo_S4096x40_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S16384x4096 .f32) (main_arg1 : FVec F S4096x40 .f32) (main_arg2 : FVec F S4096x40 .f32) (main_arg3 : FVec F S4096x40 .f32) (main_arg4 : FVec F S_ .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x40 .f32 := Host.absf main_arg1
  let main_cst_0 : FVec F S_ .f32 := constant S_ .f32 0x7F800000#32
  let main_v5 : FVec F S4096x40 .f32 := broadcastInDim S4096x40 ![] bcast_S_S4096x40 main_cst_0
  let main_v6 : IVec S4096x40 1 := cmpf .olt main_v4 main_v5
  let main_c_1 : IVec S_ 1 := constantI S_ 1 1#1
  let main_v7 : IVec S_ 1 := (fun x v => Host.reduce IntOp.andi x v reducesTo_S4096x40_S_d0_1 h_S_) main_v6 main_c_1
  let main_v8 : IVec S_ 1 := andi main_v3 main_v7
  let main_v9 : FVec F S4096x40 .f32 := Host.absf main_arg2
  let main_cst_2 : FVec F S_ .f32 := constant S_ .f32 0x7F800000#32
  let main_v10 : FVec F S4096x40 .f32 := broadcastInDim S4096x40 ![] bcast_S_S4096x40 main_cst_2
  let main_v11 : IVec S4096x40 1 := cmpf .olt main_v9 main_v10
  let main_c_3 : IVec S_ 1 := constantI S_ 1 1#1
  let main_v12 : IVec S_ 1 := (fun x v => Host.reduce IntOp.andi x v reducesTo_S4096x40_S_d0_1 h_S_) main_v11 main_c_3
  let main_v13 : IVec S_ 1 := andi main_v8 main_v12
  let main_v14 : FVec F S4096x40 .f32 := Host.absf main_arg3
  let main_cst_4 : FVec F S_ .f32 := constant S_ .f32 0x7F800000#32
  let main_v15 : FVec F S4096x40 .f32 := broadcastInDim S4096x40 ![] bcast_S_S4096x40 main_cst_4
  let main_v16 : IVec S4096x40 1 := cmpf .olt main_v14 main_v15
  fn_part1 (F := F) main_arg4 main_v13 main_v16
-- ==== Kernel.lean ====
abbrev S16384x4096 : Shape := ⟨2, ![16384, 4096]⟩
abbrev S4096x40 : Shape := ⟨2, ![4096, 40]⟩
abbrev S_ : Shape := ⟨0, ![]⟩
abbrev S40 : Shape := ⟨1, ![40]⟩
abbrev S1x40 : Shape := ⟨2, ![1, 40]⟩
abbrev S40x4 : Shape := ⟨2, ![40, 4]⟩
abbrev S16384x4 : Shape := ⟨2, ![16384, 4]⟩
abbrev S512x4096 : Shape := ⟨2, ![512, 4096]⟩
abbrev S512x4 : Shape := ⟨2, ![512, 4]⟩
abbrev S512x40 : Shape := ⟨2, ![512, 40]⟩

abbrev nBuf : Space → Nat
  | .hbm => 110
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x40, .f32⟩
  | .hbm, ⟨2, _⟩ => ⟨S4096x40, .f32⟩
  | .hbm, ⟨3, _⟩ => ⟨S4096x40, .f32⟩
  | .hbm, ⟨4, _⟩ => ⟨S_, .f32⟩
  | .hbm, ⟨5, _⟩ => ⟨S_, .f32⟩
  | .hbm, ⟨6, _⟩ => ⟨S4096x40, .f32⟩
  | .hbm, ⟨7, _⟩ => ⟨S4096x40, .f32⟩
  | .hbm, ⟨8, _⟩ => ⟨S4096x40, .f32⟩
  | .hbm, ⟨9, _⟩ => ⟨S_, .f32⟩
  | .hbm, ⟨10, _⟩ => ⟨S4096x40, .f32⟩
  | .hbm, ⟨11, _⟩ => ⟨S4096x40, .f32⟩
  | .hbm, ⟨12, _⟩ => ⟨S_, .f32⟩
  | .hbm, ⟨13, _⟩ => ⟨S4096x40, .f32⟩
  | .hbm, ⟨14, _⟩ => ⟨S4096x40, .f32⟩
  | .hbm, ⟨15, _⟩ => ⟨S4096x40, .f32⟩
  | .hbm, ⟨16, _⟩ => ⟨S4096x40, .f32⟩
  | .hbm, ⟨17, _⟩ => ⟨S4096x40, .f32⟩
  | .hbm, ⟨18, _⟩ => ⟨S_, .f32⟩
  | .hbm, ⟨19, _⟩ => ⟨S_, .f32⟩
  | .hbm, ⟨20, _⟩ => ⟨S4096x40, .f32⟩
  | .hbm, ⟨21, _⟩ => ⟨S4096x40, .f32⟩
  | .hbm, ⟨22, _⟩ => ⟨S4096x40, .f32⟩
  | .hbm, ⟨23, _⟩ => ⟨S4096x40, .f32⟩
  | .hbm, ⟨24, _⟩ => ⟨S_, .f32⟩
  | .hbm, ⟨25, _⟩ => ⟨S4096x40, .f32⟩
  | .hbm, ⟨26, _⟩ => ⟨S4096x40, .f32⟩
  | .hbm, ⟨27, _⟩ => ⟨S_, .f32⟩
  | .hbm, ⟨28, _⟩ => ⟨S4096x40, .f32⟩
  | .hbm, ⟨29, _⟩ => ⟨S4096x40, .f32⟩
  | .hbm, ⟨30, _⟩ => ⟨S_, .f32⟩
  | .hbm, ⟨31, _⟩ => ⟨S_, .f32⟩
  | .hbm, ⟨32, _⟩ => ⟨S4096x40, .f32⟩
  | .hbm, ⟨33, _⟩ => ⟨S4096x40, .f32⟩
  | .hbm, ⟨34, _⟩ => ⟨S4096x40, .f32⟩
  | .hbm, ⟨35, _⟩ => ⟨S4096x40, .f32⟩
  | .hbm, ⟨36, _⟩ => ⟨S4096x40, .f32⟩
  | .hbm, ⟨37, _⟩ => ⟨S_, .f32⟩
  | .hbm, ⟨38, _⟩ => ⟨S4096x40, .f32⟩
  | .hbm, ⟨39, _⟩ => ⟨S4096x40, .i1⟩
  | .hbm, ⟨40, _⟩ => ⟨S_, .f32⟩
  | .hbm, ⟨41, _⟩ => ⟨S4096x40, .f32⟩
  | .hbm, ⟨42, _⟩ => ⟨S4096x40, .i1⟩
  | .hbm, ⟨43, _⟩ => ⟨S4096x40, .i1⟩
  | .hbm, ⟨44, _⟩ => ⟨S4096x40, .f32⟩
  | .hbm, ⟨45, _⟩ => ⟨S_, .f32⟩
  | .hbm, ⟨46, _⟩ => ⟨S4096x40, .f32⟩
  | .hbm, ⟨47, _⟩ => ⟨S4096x40, .i1⟩
  | .hbm, ⟨48, _⟩ => ⟨S4096x40, .i1⟩
  | .hbm, ⟨49, _⟩ => ⟨S4096x40, .i1⟩
  | .hbm, ⟨50, _⟩ => ⟨S4096x40, .f32⟩
  | .hbm, ⟨51, _⟩ => ⟨S4096x40, .f32⟩
  | .hbm, ⟨52, _⟩ => ⟨S_, .f32⟩
  | .hbm, ⟨53, _⟩ => ⟨S40, .f32⟩
  | .hbm, ⟨54, _⟩ => ⟨S1x40, .f32⟩
  | .hbm, ⟨55, _⟩ => ⟨S_, .f32⟩
  | .hbm, ⟨56, _⟩ => ⟨S40, .f32⟩
  | .hbm, ⟨57, _⟩ => ⟨S1x40, .f32⟩
  | .hbm, ⟨58, _⟩ => ⟨S_, .f32⟩
  | .hbm, ⟨59, _⟩ => ⟨S40, .f32⟩
  | .hbm, ⟨60, _⟩ => ⟨S1x40, .f32⟩
  | .hbm, ⟨61, _⟩ => ⟨S1x40, .f32⟩
  | .hbm, ⟨62, _⟩ => ⟨S_, .f32⟩
  | .hbm, ⟨63, _⟩ => ⟨S1x40, .f32⟩
  | .hbm, ⟨64, _⟩ => ⟨S1x40, .i1⟩
  | .hbm, ⟨65, _⟩ => ⟨S_, .f32⟩
  | .hbm, ⟨66, _⟩ => ⟨S1x40, .f32⟩
  | .hbm, ⟨67, _⟩ => ⟨S1x40, .f32⟩
  | .hbm, ⟨68, _⟩ => ⟨S_, .f32⟩
  | .hbm, ⟨69, _⟩ => ⟨S1x40, .f32⟩
  | .hbm, ⟨70, _⟩ => ⟨S1x40, .f32⟩
  | .hbm, ⟨71, _⟩ => ⟨S_, .f32⟩
  | .hbm, ⟨72, _⟩ => ⟨S_, .f32⟩
  | .hbm, ⟨73, _⟩ => ⟨S1x40, .f32⟩
  | .hbm, ⟨74, _⟩ => ⟨S1x40, .f32⟩
  | .hbm, ⟨75, _⟩ => ⟨S_, .f32⟩
  | .hbm, ⟨76, _⟩ => ⟨S1x40, .f32⟩
  | .hbm, ⟨77, _⟩ => ⟨S1x40, .i1⟩
  | .hbm, ⟨78, _⟩ => ⟨S_, .f32⟩
  | .hbm, ⟨79, _⟩ => ⟨S_, .f32⟩
  | .hbm, ⟨80, _⟩ => ⟨S1x40, .f32⟩
  | .hbm, ⟨81, _⟩ => ⟨S1x40, .f32⟩
  | .hbm, ⟨82, _⟩ => ⟨S1x40, .f32⟩
  | .hbm, ⟨83, _⟩ => ⟨S1x40, .f32⟩
  | .hbm, ⟨84, _⟩ => ⟨S1x40, .f32⟩
  | .hbm, ⟨85, _⟩ => ⟨S1x40, .f32⟩
  | .hbm, ⟨86, _⟩ => ⟨S4096x40, .bf16⟩
  | .hbm, ⟨87, _⟩ => ⟨S40x4, .i32⟩
  | .hbm, ⟨88, _⟩ => ⟨S40x4, .i32⟩
  | .hbm, ⟨89, _⟩ => ⟨S_, .i32⟩
  | .hbm, ⟨90, _⟩ => ⟨S_, .i32⟩
  | .hbm, ⟨91, _⟩ => ⟨S40x4, .i32⟩
  | .hbm, ⟨92, _⟩ => ⟨S40x4, .i32⟩
  | .hbm, ⟨93, _⟩ => ⟨S40x4, .i32⟩
  | .hbm, ⟨94, _⟩ => ⟨S_, .i32⟩
  | .hbm, ⟨95, _⟩ => ⟨S40x4, .i32⟩
  | .hbm, ⟨96, _⟩ => ⟨S40x4, .i1⟩
  | .hbm, ⟨97, _⟩ => ⟨S40x4, .i32⟩
  | .hbm, ⟨98, _⟩ => ⟨S40x4, .i32⟩
  | .hbm, ⟨99, _⟩ => ⟨S_, .i32⟩
  | .hbm, ⟨100, _⟩ => ⟨S40x4, .i32⟩
  | .hbm, ⟨101, _⟩ => ⟨S40x4, .i1⟩
  | .hbm, ⟨102, _⟩ => ⟨S40x4, .i1⟩
  | .hbm, ⟨103, _⟩ => ⟨S_, .i32⟩
  | .hbm, ⟨104, _⟩ => ⟨S40x4, .i32⟩
  | .hbm, ⟨105, _⟩ => ⟨S40x4, .i32⟩
  | .hbm, ⟨106, _⟩ => ⟨S40x4, .i32⟩
  | .hbm, ⟨107, _⟩ => ⟨S40x4, .i1⟩
  | .hbm, ⟨108, _⟩ => ⟨S40x4, .bf16⟩
  | .hbm, ⟨109, _⟩ => ⟨S16384x4, .f32⟩
  | .local _ .vmem, ⟨0, _⟩ => ⟨S512x4096, .f32⟩
  | .local _ .vmem, ⟨1, _⟩ => ⟨S512x4096, .f32⟩
  | .local _ .vmem, ⟨2, _⟩ => ⟨S4096x40, .bf16⟩
  | .local _ .vmem, ⟨3, _⟩ => ⟨S1x40, .f32⟩
  | .local _ .vmem, ⟨4, _⟩ => ⟨S1x40, .f32⟩
  | .local _ .vmem, ⟨5, _⟩ => ⟨S40x4, .bf16⟩
  | .local _ .vmem, ⟨6, _⟩ => ⟨S512x4, .f32⟩
  | .local _ .vmem, ⟨7, _⟩ => ⟨S512x4, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_call0_v0 : Ref sig .tc := ⟨.hbm, 72, rfl⟩
abbrev main_call0_v1 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_cst_18 : Ref sig .tc := ⟨.hbm, 79, rfl⟩
abbrev main_call1_v0 : Ref sig .tc := ⟨.hbm, 80, rfl⟩
abbrev main_call1_v1 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_c : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_0 : Ref sig .tc := ⟨.hbm, 103, rfl⟩
abbrev main_call2_v12 : Ref sig .tc := ⟨.hbm, 104, rfl⟩
abbrev main_call2_v13 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096x40 : S_.BroadcastsInDim S4096x40 (![] : Fin 0 → Fin S4096x40.rank)
  reducesTo_S4096x40_S40_d0 : S4096x40.ReducesTo [0] S40
  h_S_ : 0 < S_.numel
  bcast_S40_S1x40_1 : S40.BroadcastsInDim S1x40 (![1] : Fin 1 → Fin S1x40.rank)
  bcast_S_S1x40 : S_.BroadcastsInDim S1x40 (![] : Fin 0 → Fin S1x40.rank)
  bitsLt_bf16_f32 : FTy.bits .bf16 < FTy.bits .f32
  bcast_S_S40x4 : S_.BroadcastsInDim S40x4 (![] : Fin 0 → Fin S40x4.rank)
  inb_S512x4096_S512x4096_0_0 : ∀ a, (![0, 0] : Fin 2 → Nat) a + S512x4096.size a ≤ S512x4096.size a
  h_S512x4096 : 0 < S512x4096.numel
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S512x40 : S1x40.Broadcasts S512x40
  inb_S40x4_S40x4_0_0 : ∀ a, (![0, 0] : Fin 2 → Nat) a + S40x4.size a ≤ S40x4.size a
  h_S40x4 : 0 < S40x4.numel
  shapeCasts_S40x4_S40x4 : S40x4.ShapeCasts S40x4
  inb_S512x4_S512x4_0_0 : ∀ a, (![0, 0] : Fin 2 → Nat) a + S512x4.size a ≤ S512x4.size a
  h_S512x4 : 0 < S512x4.numel
  dot_S512x4096_S4096x40_S512x40_1_0_0_1_n_n_wf : DotDims.WF S512x4096 S4096x40 S512x40 [1] [0] [0] [1] [] []
  dot_S512x40_S40x4_S512x4_1_0_0_1_n_n_wf : DotDims.WF S512x40 S40x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x40.size a ≤ S4096x40.size a
  hwx0_1 : ∀ i : grid0.Coords, EltTy.bits .bf16 = 32 ∨ (Rect.block (s := S4096x40) S4096x40.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x4.size a ≤ S40x4.size a
  hwx0_4 : ∀ i : grid0.Coords, EltTy.bits .bf16 = 32 ∨ (Rect.block (s := S40x4) S40x4.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S16384x4.size a
  hwx0_5 : ∀ i : grid0.Coords, EltTy.bits .f32 = 32 ∨ (Rect.block (s := S16384x4) S512x4.size (cc0_transform_5 i) (hinb0_5 i)).WholeWords (EltTy.packing .f32)

variable [Facts₀]

def dot_S512x4096_S4096x40_S512x40_1_0_0_1_n_n : DotDims S512x4096 S4096x40 S512x40 where
  lhsContracting := [1]
  rhsContracting := [0]
  lhsNonContracting := [0]
  rhsNonContracting := [1]
  lhsBatch := []
  rhsBatch := []
  wf := dot_S512x4096_S4096x40_S512x40_1_0_0_1_n_n_wf
def dot_S512x40_S40x4_S512x4_1_0_0_1_n_n : DotDims S512x40 S40x4 S512x4 where
  lhsContracting := [1]
  rhsContracting := [0]
  lhsNonContracting := [0]
  rhsNonContracting := [1]
  lhsBatch := []
  rhsBatch := []
  wf := dot_S512x40_S40x4_S512x4_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S4096x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S40x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v63) S512x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x40 : Shape := ⟨2, ![4096, 40]⟩
abbrev S_ : Shape := ⟨0, ![]⟩
abbrev S16384x40 : Shape := ⟨2, ![16384, 40]⟩
abbrev S40 : Shape := ⟨1, ![40]⟩
abbrev S1x40 : Shape := ⟨2, ![1, 40]⟩
abbrev S16384x4x10 : Shape := ⟨3, ![16384, 4, 10]⟩
abbrev S16384x4 : Shape := ⟨2, ![16384, 4]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x40, .f32⟩
  | .hbm, ⟨2, _⟩ => ⟨S4096x40, .f32⟩
  | .hbm, ⟨3, _⟩ => ⟨S4096x40, .f32⟩
  | .hbm, ⟨4, _⟩ => ⟨S_, .f32⟩
  | .hbm, ⟨5, _⟩ => ⟨S_, .f32⟩
  | .hbm, ⟨6, _⟩ => ⟨S4096x40, .f32⟩
  | .hbm, ⟨7, _⟩ => ⟨S4096x40, .f32⟩
  | .hbm, ⟨8, _⟩ => ⟨S4096x40, .f32⟩
  | .hbm, ⟨9, _⟩ => ⟨S_, .f32⟩
  | .hbm, ⟨10, _⟩ => ⟨S4096x40, .f32⟩
  | .hbm, ⟨11, _⟩ => ⟨S4096x40, .f32⟩
  | .hbm, ⟨12, _⟩ => ⟨S_, .f32⟩
  | .hbm, ⟨13, _⟩ => ⟨S4096x40, .f32⟩
  | .hbm, ⟨14, _⟩ => ⟨S4096x40, .f32⟩
  | .hbm, ⟨15, _⟩ => ⟨S4096x40, .f32⟩
  | .hbm, ⟨16, _⟩ => ⟨S4096x40, .f32⟩
  | .hbm, ⟨17, _⟩ => ⟨S4096x40, .f32⟩
  | .hbm, ⟨18, _⟩ => ⟨S_, .f32⟩
  | .hbm, ⟨19, _⟩ => ⟨S_, .f32⟩
  | .hbm, ⟨20, _⟩ => ⟨S4096x40, .f32⟩
  | .hbm, ⟨21, _⟩ => ⟨S4096x40, .f32⟩
  | .hbm, ⟨22, _⟩ => ⟨S4096x40, .f32⟩
  | .hbm, ⟨23, _⟩ => ⟨S4096x40, .f32⟩
  | .hbm, ⟨24, _⟩ => ⟨S_, .f32⟩
  | .hbm, ⟨25, _⟩ => ⟨S4096x40, .f32⟩
  | .hbm, ⟨26, _⟩ => ⟨S4096x40, .f32⟩
  | .hbm, ⟨27, _⟩ => ⟨S_, .f32⟩
  | .hbm, ⟨28, _⟩ => ⟨S4096x40, .f32⟩
  | .hbm, ⟨29, _⟩ => ⟨S4096x40, .f32⟩
  | .hbm, ⟨30, _⟩ => ⟨S_, .f32⟩
  | .hbm, ⟨31, _⟩ => ⟨S_, .f32⟩
  | .hbm, ⟨32, _⟩ => ⟨S4096x40, .f32⟩
  | .hbm, ⟨33, _⟩ => ⟨S4096x40, .f32⟩
  | .hbm, ⟨34, _⟩ => ⟨S4096x40, .f32⟩
  | .hbm, ⟨35, _⟩ => ⟨S4096x40, .f32⟩
  | .hbm, ⟨36, _⟩ => ⟨S4096x40, .f32⟩
  | .hbm, ⟨37, _⟩ => ⟨S_, .f32⟩
  | .hbm, ⟨38, _⟩ => ⟨S4096x40, .f32⟩
  | .hbm, ⟨39, _⟩ => ⟨S4096x40, .i1⟩
  | .hbm, ⟨40, _⟩ => ⟨S_, .f32⟩
  | .hbm, ⟨41, _⟩ => ⟨S4096x40, .f32⟩
  | .hbm, ⟨42, _⟩ => ⟨S4096x40, .i1⟩
  | .hbm, ⟨43, _⟩ => ⟨S4096x40, .i1⟩
  | .hbm, ⟨44, _⟩ => ⟨S4096x40, .f32⟩
  | .hbm, ⟨45, _⟩ => ⟨S_, .f32⟩
  | .hbm, ⟨46, _⟩ => ⟨S4096x40, .f32⟩
  | .hbm, ⟨47, _⟩ => ⟨S4096x40, .i1⟩
  | .hbm, ⟨48, _⟩ => ⟨S4096x40, .i1⟩
  | .hbm, ⟨49, _⟩ => ⟨S4096x40, .i1⟩
  | .hbm, ⟨50, _⟩ => ⟨S4096x40, .f32⟩
  | .hbm, ⟨51, _⟩ => ⟨S16384x40, .f32⟩
  | .hbm, ⟨52, _⟩ => ⟨S_, .f32⟩
  | .hbm, ⟨53, _⟩ => ⟨S16384x4096, .f32⟩
  | .hbm, ⟨54, _⟩ => ⟨S16384x4096, .f32⟩
  | .hbm, ⟨55, _⟩ => ⟨S16384x40, .f32⟩
  | .hbm, ⟨56, _⟩ => ⟨S16384x40, .f32⟩
  | .hbm, ⟨57, _⟩ => ⟨S_, .f32⟩
  | .hbm, ⟨58, _⟩ => ⟨S40, .f32⟩
  | .hbm, ⟨59, _⟩ => ⟨S_, .f32⟩
  | .hbm, ⟨60, _⟩ => ⟨S40, .f32⟩
  | .hbm, ⟨61, _⟩ => ⟨S40, .f32⟩
  | .hbm, ⟨62, _⟩ => ⟨S_, .f32⟩
  | .hbm, ⟨63, _⟩ => ⟨S40, .f32⟩
  | .hbm, ⟨64, _⟩ => ⟨S40, .i1⟩
  | .hbm, ⟨65, _⟩ => ⟨S_, .f32⟩
  | .hbm, ⟨66, _⟩ => ⟨S40, .f32⟩
  | .hbm, ⟨67, _⟩ => ⟨S40, .f32⟩
  | .hbm, ⟨68, _⟩ => ⟨S1x40, .f32⟩
  | .hbm, ⟨69, _⟩ => ⟨S16384x40, .f32⟩
  | .hbm, ⟨70, _⟩ => ⟨S16384x40, .f32⟩
  | .hbm, ⟨71, _⟩ => ⟨S_, .f32⟩
  | .hbm, ⟨72, _⟩ => ⟨S_, .f32⟩
  | .hbm, ⟨73, _⟩ => ⟨S16384x40, .i1⟩
  | .hbm, ⟨74, _⟩ => ⟨S16384x40, .f32⟩
  | .hbm, ⟨75, _⟩ => ⟨S16384x40, .f32⟩
  | .hbm, ⟨76, _⟩ => ⟨S16384x4x10, .f32⟩
  | .hbm, ⟨77, _⟩ => ⟨S_, .f32⟩
  | .hbm, ⟨78, _⟩ => ⟨S16384x4, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S4096x40 : S_.BroadcastsInDim S4096x40 (![] : Fin 0 → Fin S4096x40.rank)
  bcast_S_S16384x4096 : S_.BroadcastsInDim S16384x4096 (![] : Fin 0 → Fin S16384x4096.rank)
  reducesTo_S4096x40_S40_d0 : S4096x40.ReducesTo [0] S40
  h_S_ : 0 < S_.numel
  bcast_S_S40 : S_.BroadcastsInDim S40 (![] : Fin 0 → Fin S40.rank)
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  bcast_S40_S16384x40_1 : S40.BroadcastsInDim S16384x40 (![1] : Fin 1 → Fin S16384x40.rank)
  bcast_S_S16384x40 : S_.BroadcastsInDim S16384x40 (![] : Fin 0 → Fin S16384x40.rank)
  shapeCasts_S16384x40_S16384x4x10 : S16384x40.ShapeCasts S16384x4x10
  reducesTo_S16384x4x10_S16384x4_d2 : S16384x4x10.ReducesTo [2] S16384x4
  dot_S16384x4096_S4096x40_S16384x40_1_0_0_1_n_n_wf : DotDims.WF S16384x4096 S4096x40 S16384x40 [1] [0] [0] [1] [] []

variable [Facts₀]

def dot_S16384x4096_S4096x40_S16384x40_1_0_0_1_n_n : DotDims S16384x4096 S4096x40 S16384x40 where
  lhsContracting := [1]
  rhsContracting := [0]
  lhsNonContracting := [0]
  rhsNonContracting := [1]
  lhsBatch := []
  rhsBatch := []
  wf := dot_S16384x4096_S4096x40_S16384x40_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KernelBody.lean ====
/-
  What the kernel body stores, entry by entry, on the extended reals.

  For a block of 512 rows of features x (512×4096), the signed literal matrix d (4096×40), the row of reciprocal counts
  (1×40), the row of offsets (1×40) and the segment matrix (40×4), the body stores the 512×4 block whose entry (p, a) is
      Σ_c ((Σ_f x(p, f) · d(f, c)) · inv(0, c) + off(0, c)) · seg(c, a):
  two matrix products into zero accumulators, each the sum over its contracted coordinate, the two rows broadcast down the
  512 rows, and the roundings to the narrow format, which change nothing on the extended reals.
-/
import proofs.«145984_j39290360823856_2_alg».proof.Proof.Gen.KernelIdeal.Skeleton
import proofs.«145984_j39290360823856_2_alg».proof.Proof.LibBlockReads
import Idealize.ShloMosaic.Lib.ValueIdx
import Idealize.ShloMosaic.Lib.Pipeline.Value

open scoped BigOperators

noncomputable section

namespace Cert.KernelIdeal.Body

open Cert.KernelIdeal Cert.KernelIdeal.Gen Idealize.ShloMosaic Idealize.ShloMosaic.ValueIdx Cert.Lib.BlockReads

/-- The stored block at (p, a): the clause satisfactions of row p, each the signed literal sum times the reciprocal count
    plus the offset, summed against column a of the segment matrix. -/
theorem payload_apply (x0 : FVec Ideal S512x4096 .f32) (x1 : FVec Ideal S4096x40 .bf16) (x2 x3 : FVec Ideal S1x40 .f32)
    (x4 : FVec Ideal S40x4 .bf16) (p : Fin 512) (a : Fin 4) :
    k0_pay1 (F := Ideal) x0 x1 x2 x3 x4 (ix2 p a)
      = ∑ c : Fin 40, ((∑ f : Fin 4096, x0 (ix2 p f) * x1 (ix2 f c)) * x2 (ix2 0 c) + x3 (ix2 0 c)) * x4 (ix2 c a) := by
  unfold k0_pay1
  refine (matmul_zero_rows_apply dot_S512x40_S40x4_S512x4_1_0_0_1_n_n rfl rfl rfl rfl rfl rfl none _ _ p a).trans ?_
  refine Finset.sum_congr rfl fun c _ => ?_
  rw [shapeCast_self, shapeCast_self, shapeCast_self, shapeCast_self, truncf_apply, addf_apply, mulf_apply,
    broadcast_row_apply, broadcast_row_apply]
  refine congrArg (fun z => (z * x2 (ix2 0 c) + x3 (ix2 0 c)) * x4 (ix2 c a)) ?_
  refine (matmul_zero_rows_apply dot_S512x4096_S4096x40_S512x40_1_0_0_1_n_n rfl rfl rfl rfl rfl rfl none _ _ p c).trans ?_
  exact Finset.sum_congr rfl fun f _ => by rw [truncf_apply]

end Cert.KernelIdeal.Body

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.ClauseAlgebra.lean ====
/-
  The arithmetic of a clause's satisfaction, on the extended reals.

  A clause c has a number of positive literals and a number of negative literals among the features; cnt is their total.
  For one row x of features the reference takes the mean of the active literals,
      (Σ_f x_f · pos_f + Σ_f (1 − x_f) · neg_f) / max(cnt, 1)    when cnt > 0, and 1 for an empty clause,
  while the kernel computes Σ_f x_f · (pos_f − neg_f), multiplies by the reciprocal count (0 for an empty clause) and adds
  the folded offset  (Σ_f neg_f) · (reciprocal count) + (0, or 1 for an empty clause).
  On reals the two agree: Σ x (pos − neg) + Σ neg = Σ x pos + Σ (1 − x) neg, a quotient by max(cnt, 1) ≥ 1 is the product with
  its reciprocal, and for an empty clause both sides are 1 because a real times 0 is 0. The laws used (distributing a factor
  over a sum, cancelling) fail at infinities, so the values are asked to be reals.
  An action's score is the sum of the satisfactions of its ten consecutive clauses; the kernel takes it as a product with the
  40×4 matrix of zeros and ones whose entry (c, a) is 1 exactly when c / 10 = a. Nothing here mentions a program.
-/
import Mathlib.Algebra.BigOperators.Fin
import Mathlib.Data.EReal.Inv
import Idealize.ShloMosaic.PureOps.Ideal
import proofs.«145984_j39290360823856_2_alg».proof.Proof.LibIdealSums
import proofs.«145984_j39290360823856_2_alg».proof.Proof.LibFinGroups

open scoped BigOperators

noncomputable section

namespace Cert.ClauseScores

open Idealize.ShloMosaic Cert.Lib.IdealSums

/-- The reciprocal of a clause's literal count, 0 for an empty clause. -/
def invCount (cnt : EReal) : EReal := if 0 < cnt then Ideal.div 1 (max cnt 1) else 0

/-- What an empty clause contributes: 1, and 0 for a clause with literals. -/
def emptyValue (cnt : EReal) : EReal := if 0 < cnt then 0 else 1

/-- The satisfaction as the kernel computes it: the signed literal sum times the reciprocal count, plus the folded
    offset. -/
def satFolded (num bias cnt : EReal) : EReal := num * invCount cnt + (bias * invCount cnt + emptyValue cnt)

/-- The satisfaction as the reference computes it: the mean of the active literals, 1 for an empty clause. -/
def satMean (total cnt : EReal) : EReal := if 0 < cnt then Ideal.div total (max cnt 1) else 1

/-- The word of the 32-bit format's 1.0 denotes the real 1. -/
theorem one_f32 : Ideal.ofBits .f32 0x3F800000#32 = 1 := by
  simp [Ideal.ofBits, Ideal.ieee, -EReal.coe_mul]; norm_num

/-- Selecting on the bit of the comparison "x > 0" is the `if` on `0 < x`. -/
theorem select_gt_zero (x A B : EReal) : Scalar.select (Ideal.cmp .ogt x 0) A B = if 0 < x then A else B := by
  unfold Scalar.select Ideal.cmp
  by_cases h : (0 : EReal) < x <;> simp [h]

/-- The larger of two reals, taken among the reals or among the extended reals. -/
theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- On reals the folded form is the mean: with M = max(cnt, 1) ≥ 1, num · (1/M) + bias · (1/M) + 0 = (num + bias)/M, and
    for cnt ≤ 0, num · 0 + (bias · 0 + 1) = 1. -/
theorem satFolded_eq_satMean {num bias total cnt : EReal} (hn : IsReal num) (hb : IsReal bias) (hc : IsReal cnt)
    (h : num + bias = total) : satFolded num bias cnt = satMean total cnt := by
  obtain ⟨n, rfl⟩ := hn; obtain ⟨b, rfl⟩ := hb; obtain ⟨k, rfl⟩ := hc
  subst h
  unfold satFolded satMean invCount emptyValue
  by_cases hk : (0 : EReal) < (k : EReal)
  · rw [if_pos hk, if_pos hk, if_pos hk]
    have hM : (max k 1 : ℝ) ≠ 0 := ne_of_gt (lt_of_lt_of_le one_pos (le_max_right k 1))
    have e1 : Ideal.div 1 (max (k : EReal) 1) = ((1 / max k 1 : ℝ) : EReal) := by
      rw [← EReal.coe_one, ← coe_max, div_coe_coe 1 hM]
    have e2 : Ideal.div ((n : EReal) + (b : EReal)) (max (k : EReal) 1) = (((n + b) / max k 1 : ℝ) : EReal) := by
      rw [← EReal.coe_one, ← coe_max, ← EReal.coe_add, div_coe_coe _ hM]
    rw [e1, e2, add_zero, ← EReal.coe_mul, ← EReal.coe_mul, ← EReal.coe_add]
    congr 1
    ring
  · rw [if_neg hk, if_neg hk, if_neg hk, mul_zero, mul_zero, zero_add, zero_add]

/-- The signed literal sum plus the count of negative literals is the sum of the literals: for reals
    Σ x (p − n) + (0 + Σ n) = Σ x p + Σ (1 − x) n, term by term. -/
theorem signed_add_bias {ι : Type*} [Fintype ι] (x p n : ι → ℝ) :
    (∑ f, (x f : EReal) * ((p f : EReal) - (n f : EReal))) + (0 + ∑ f, (n f : EReal))
      = (∑ f, (x f : EReal) * (p f : EReal)) + ∑ f, ((1 : EReal) - (x f : EReal)) * (n f : EReal) := by
  rw [zero_add]
  simp only [← EReal.coe_one, ← EReal.coe_sub, ← EReal.coe_mul, ← coe_sum_univ, ← EReal.coe_add]
  congr 1
  rw [← Finset.sum_add_distrib, ← Finset.sum_add_distrib]
  exact Finset.sum_congr rfl fun f _ => by ring

/-- The product of a row of forty satisfactions with the matrix of zeros and ones whose entry (c, a) is 1 exactly when
    c / 10 = a is the sum of the ten satisfactions of action a's clauses, 10·a … 10·a + 9. A value times 0 is 0 and times 1
    is itself for every extended real, so nothing is asked of the satisfactions. -/
theorem segment_sum (s : ℕ → EReal) (a : Fin 4) :
    ∑ c : Fin 40, s c.val * (if c.val / 10 = a.val then (1 : EReal) else 0) = ∑ j : Fin 10, s (10 * a.val + j.val) := by
  refine (Cert.Lib.FinGroups.sum_fin_groups 4 10 (fun n => s n * (if n / 10 = a.val then (1 : EReal) else 0))).trans ?_
  have hdiv : ∀ (g : Fin 4) (j : Fin 10), (10 * g.val + j.val) / 10 = g.val := fun g j => by have := j.isLt; omega
  simp only [hdiv]
  rw [Finset.sum_eq_single a]
  · simp
  · intro g _ hg
    have hne : g.val ≠ a.val := fun e => hg (Fin.ext e)
    simp [hne]
  · intro h; exact absurd (Finset.mem_univ a) h

end Cert.ClauseScores

end
-- ==== Proof.ScoreSpec.lean ====
/-
  The action scores as the kernel's region computes them, as ONE function of whole arrays of extended reals.

  From the features X (16384×4096), a signed literal matrix D (4096×40), a row of reciprocal counts I (1×40), a row of
  offsets O (1×40) and a segment matrix Sg (40×4), row r's score for action a is
      Σ_c ((Σ_f X(r, f) · D(f, c)) · I(0, c) + O(0, c)) · Sg(c, a).
  A score depends on one row of X only, which is why the rows can be computed 512 at a time.
  Beside it, the reference's reading of the same quantity from the two indicator matrices P and N: the mean satisfaction
  of clause k on row r, and row r's score for action a as the sum over the action's ten clauses. Nothing here mentions a
  program.
-/
import Idealize.ShloMosaic.PureOps.Ideal
import Idealize.ShloMosaic.Lib.ValueIdx
import proofs.«145984_j39290360823856_2_alg».proof.Proof.ClauseAlgebra

open scoped BigOperators

noncomputable section

namespace Cert.ClauseScores

open Idealize.ShloMosaic Idealize.ShloMosaic.ValueIdx

/-- Row r's score for action a. -/
def scoreAt (X : (⟨2, ![16384, 4096]⟩ : Shape).Idx → EReal) (D : (⟨2, ![4096, 40]⟩ : Shape).Idx → EReal)
    (I O : (⟨2, ![1, 40]⟩ : Shape).Idx → EReal) (Sg : (⟨2, ![40, 4]⟩ : Shape).Idx → EReal) (r : Fin 16384) (a : Fin 4) : EReal :=
  ∑ c : Fin 40, ((∑ f : Fin 4096, X (ix2 r f) * D (ix2 f c)) * I (ix2 0 c) + O (ix2 0 c)) * Sg (ix2 c a)

/-- The 16384×4 array of scores. -/
def scores (X : (⟨2, ![16384, 4096]⟩ : Shape).Idx → EReal) (D : (⟨2, ![4096, 40]⟩ : Shape).Idx → EReal)
    (I O : (⟨2, ![1, 40]⟩ : Shape).Idx → EReal) (Sg : (⟨2, ![40, 4]⟩ : Shape).Idx → EReal) :
    (⟨2, ![16384, 4]⟩ : Shape).Idx → EReal :=
  fun i => scoreAt X D I O Sg ⟨(i 0).val, idx2_lt0 i⟩ ⟨(i 1).val, idx2_lt1 i⟩

theorem scores_apply (X : (⟨2, ![16384, 4096]⟩ : Shape).Idx → EReal) (D : (⟨2, ![4096, 40]⟩ : Shape).Idx → EReal)
    (I O : (⟨2, ![1, 40]⟩ : Shape).Idx → EReal) (Sg : (⟨2, ![40, 4]⟩ : Shape).Idx → EReal) (r : Fin 16384) (a : Fin 4) :
    scores X D I O Sg (ix2 r a) = scoreAt X D I O Sg r a := rfl

/-- The mean satisfaction of clause k on row r: the literals' total Σ_f X(r, f) · P(f, k) + Σ_f (1 − X(r, f)) · N(f, k) over
    the literal count, 1 for an empty clause (each column sum starts from the zero word, the real 0). -/
def meanSat (X : (⟨2, ![16384, 4096]⟩ : Shape).Idx → EReal) (P N : (⟨2, ![4096, 40]⟩ : Shape).Idx → EReal)
    (r : Fin 16384) (k : Fin 40) : EReal :=
  satMean ((∑ f : Fin 4096, X (ix2 r f) * P (ix2 f k)) + ∑ f : Fin 4096, ((1 : EReal) - X (ix2 r f)) * N (ix2 f k))
    ((0 + ∑ f : Fin 4096, P (ix2 f k)) + (0 + ∑ f : Fin 4096, N (ix2 f k)))

/-- Clause number 10·a + j, the j-th clause of action a. -/
abbrev clauseOf (a : Fin 4) (j : Fin 10) : Fin 40 := ⟨10 * a.val + j.val, by have := a.isLt; have := j.isLt; omega⟩

/-- Row r's score for action a, as the reference sums it: from the zero word, the ten mean satisfactions. -/
def meanScoreAt (X : (⟨2, ![16384, 4096]⟩ : Shape).Idx → EReal) (P N : (⟨2, ![4096, 40]⟩ : Shape).Idx → EReal)
    (r : Fin 16384) (a : Fin 4) : EReal :=
  0 + ∑ j : Fin 10, meanSat X P N r (clauseOf a j)

end Cert.ClauseScores

end
-- ==== Proof.KernelArray.lean ====
/-
  From the 512-row blocks to the whole array of scores.

  The grid has 32 points. Point t reads rows 512·t … 512·t + 511 of the features, and the whole of the four small
  arrays (their block index is (0, 0) at every point); it writes rows 512·t … 512·t + 511 of the result. A score depends
  on its own row of the features only, so what point t writes back is rows 512·t … of the one whole-array function
  `scores`; the 32 blocks cover all 16384 rows (row r lies in block r / 512), so after the run the result array IS
  `scores` of the arrays the region was entered with.
-/
import proofs.«145984_j39290360823856_2_alg».proof.Proof.Gen.KernelIdeal.Value
import proofs.«145984_j39290360823856_2_alg».proof.Proof.KernelBody
import proofs.«145984_j39290360823856_2_alg».proof.Proof.ScoreSpec
import Idealize.ShloMosaic.Lib.Pipeline.Value
import Idealize.ShloMosaic.Lib.ValueIdx

open scoped BigOperators

noncomputable section

namespace Cert.KernelIdeal.Scores

open Cert.KernelIdeal Cert.KernelIdeal.Gen Cert.KernelIdeal.Value Cert.ClauseScores
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the features and the result move with the point along the
    rows; the four small arrays stay at block (0, 0). -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 32 := by
  have h := t.isLt
  have hN : cfg0.N = 32 := N_0
  omega

/-! ## Each window's block at a point, as entries of its array -/

/-- Row p of the features' block at point t is row 512·t + p of the features. -/
theorem features_block (c : Dev nD) (t : Fin cfg0.N) (p : Fin 512) (f : Fin 4096) (r : Fin 16384)
    (hr : r.val = t.val * 512 + p.val) :
    (iblk m c 0 t : FVec Ideal S512x4096 .f32) (ix2 p f) = (V m c main_arg0 : S16384x4096.Idx → EReal) (ix2 r f) := by
  obtain ⟨-, -, e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * f.val = f.val; rw [e1]; omega

/-- The signed literal matrix's block at every point is the whole matrix. -/
theorem literals_block (c : Dev nD) (t : Fin cfg0.N) (f : Fin 4096) (k : Fin 40) :
    (iblk m c 1 t : FVec Ideal S4096x40 .bf16) (ix2 f k) = (V m c main_v57 : S4096x40.Idx → EReal) (ix2 f k) := by
  obtain ⟨-, -, -, -, e0, e1, -⟩ := idx_facts t
  unfold iblk
  rw [View.read_apply]
  show V m c main_v57 _ = V m c main_v57 _
  refine congrArg (V m c main_v57) (funext fun a => Fin.ext ?_)
  match a with
  | ⟨0, _⟩ => show win0_1.index t (0 : Fin 2) * 4096 + 1 * f.val = f.val; rw [e0]; omega
  | ⟨1, _⟩ => show win0_1.index t (1 : Fin 2) * 40 + 1 * k.val = k.val; rw [e1]; omega

/-- The reciprocal counts' block at every point is the whole row. -/
theorem invcount_block (c : Dev nD) (t : Fin cfg0.N) (k : Fin 40) :
    (iblk m c 2 t : FVec Ideal S1x40 .f32) (ix2 0 k) = (V m c main_v50 : S1x40.Idx → EReal) (ix2 0 k) := by
  obtain ⟨-, -, -, -, -, -, e0, e1, -⟩ := idx_facts t
  unfold iblk
  rw [View.read_apply]
  show V m c main_v50 _ = V m c main_v50 _
  refine congrArg (V m c main_v50) (funext fun a => Fin.ext ?_)
  match a with
  | ⟨0, _⟩ => show win0_2.index t (0 : Fin 2) * 1 + 1 * 0 = 0; rw [e0]
  | ⟨1, _⟩ => show win0_2.index t (1 : Fin 2) * 40 + 1 * k.val = k.val; rw [e1]; omega

/-- The offsets' block at every point is the whole row. -/
theorem offset_block (c : Dev nD) (t : Fin cfg0.N) (k : Fin 40) :
    (iblk m c 3 t : FVec Ideal S1x40 .f32) (ix2 0 k) = (V m c main_v56 : S1x40.Idx → EReal) (ix2 0 k) := by
  obtain ⟨-, -, -, -, -, -, -, -, e0, e1, -⟩ := idx_facts t
  unfold iblk
  rw [View.read_apply]
  show V m c main_v56 _ = V m c main_v56 _
  refine congrArg (V m c main_v56) (funext fun a => Fin.ext ?_)
  match a with
  | ⟨0, _⟩ => show win0_3.index t (0 : Fin 2) * 1 + 1 * 0 = 0; rw [e0]
  | ⟨1, _⟩ => show win0_3.index t (1 : Fin 2) * 40 + 1 * k.val = k.val; rw [e1]; omega

/-- The segment matrix's block at every point is the whole matrix. -/
theorem segment_block (c : Dev nD) (t : Fin cfg0.N) (k : Fin 40) (a : Fin 4) :
    (iblk m c 4 t : FVec Ideal S40x4 .bf16) (ix2 k a) = (V m c main_v62 : S40x4.Idx → EReal) (ix2 k a) := by
  obtain ⟨-, -, -, -, -, -, -, -, -, -, e0, e1⟩ := idx_facts t
  unfold iblk
  rw [View.read_apply]
  show V m c main_v62 _ = V m c main_v62 _
  refine congrArg (V m c main_v62) (funext fun b => Fin.ext ?_)
  match b with
  | ⟨0, _⟩ => show win0_4.index t (0 : Fin 2) * 40 + 1 * k.val = k.val; rw [e0]; omega
  | ⟨1, _⟩ => show win0_4.index t (1 : Fin 2) * 4 + 1 * a.val = a.val; rw [e1]; omega

/-- Entry (p, a) of the result's block at point t is entry (512·t + p, a) of the result array. -/
theorem result_block_index (t : Fin cfg0.N) (p : Fin 512) (a : Fin 4) (r : Fin 16384) (hr : r.val = t.val * 512 + p.val) :
    (((cfg0.win 5).blk t).view.emb (ix2 p a) : S16384x4.Idx) = ix2 r a := by
  obtain ⟨e0, e1, -⟩ := idx_facts t
  refine funext fun b => Fin.ext ?_
  match b with
  | ⟨0, _⟩ => show win0_5.index t (0 : Fin 2) * 512 + 1 * p.val = r.val; rw [e0, hr]; omega
  | ⟨1, _⟩ => show win0_5.index t (1 : Fin 2) * 4 + 1 * a.val = a.val; rw [e1]; omega

/-! ## What a point writes back, the cover, the array -/

/-- The arrays the region is entered with, as the score function's arguments. -/
abbrev entryScores (c : Dev nD) : S16384x4.Idx → EReal :=
  scores (V m c main_arg0) (V m c main_v57) (V m c main_v50) (V m c main_v56) (V m c main_v62)

/-- WHAT POINT t WRITES BACK is block t of the score array. -/
theorem flushed_eq (c : Dev nD) (t : Fin cfg0.N) :
    (dats m 0 c).flushed 5 t = ((cfg0.win 5).blk t).view.read (Elt Ideal) (entryScores m c) := by
  rw [flushed5]
  unfold out0_5
  rw [View.canon_unit_zero hz]
  simp only [View.ld_unit_zero (S := S512x4096) hz, View.ld_unit_zero (S := S4096x40) hz,
    View.ld_unit_zero (S := S1x40) hz, View.ld_unit_zero (S := S40x4) hz]
  funext j
  obtain ⟨p, a, rfl⟩ : ∃ (p : Fin 512) (a : Fin 4), j = ix2 p a := ⟨j 0, j 1, eq_ix2 j⟩
  have ht := point_lt t
  have hp := p.isLt
  obtain ⟨r, hr⟩ : ∃ r : Fin 16384, r.val = t.val * 512 + p.val := ⟨⟨t.val * 512 + p.val, by omega⟩, rfl⟩
  show k0_pay1 (F := Ideal) (iblk m c 0 t) (iblk m c 1 t) (iblk m c 2 t) (iblk m c 3 t) (iblk m c 4 t) (ix2 p a)
    = entryScores m c (((cfg0.win 5).blk t).view.emb (ix2 p a))
  rw [result_block_index t p a r hr]
  refine (Cert.KernelIdeal.Body.payload_apply (iblk m c 0 t) (iblk m c 1 t) (iblk m c 2 t) (iblk m c 3 t) (iblk m c 4 t) p a).trans ?_
  show _ = scoreAt (V m c main_arg0) (V m c main_v57) (V m c main_v50) (V m c main_v56) (V m c main_v62) r a
  unfold scoreAt
  refine Finset.sum_congr rfl fun k _ => ?_
  have h0 := fun f => features_block m c t p f r hr
  have h1 := fun f => literals_block m c t f k
  simp only [h0, h1, invcount_block m c t k, offset_block m c t k, segment_block m c t k a]

/-- An index of the result array is in point t's block iff each coordinate is in the block's range on its axis. -/
theorem mem_blk (t : Fin cfg0.N) (i : S16384x4.Idx) :
    i ∈ ((cfg0.win 5).blk t).view.set ↔ ∀ a : Fin 2, win0_5.index t a * S512x4.size a ≤ (i a).val ∧ (i a).val < win0_5.index t a * S512x4.size a + S512x4.size a := by
  show i ∈ ((View.whole main_v63).slice (win0_5.rect t)).set ↔ _
  rw [View.set_slice_whole, Rect.mem_set_unit]
  exact Iff.rfl

/-- Every row is in some point's block: row r in block r / 512. -/
theorem cover (i : S16384x4.Idx) : ∃ t : Fin cfg0.N, (cfg0.win 5).flush t = true ∧ i ∈ ((cfg0.win 5).blk t).view.set := by
  have hi0 : (i 0).val < 16384 := (i 0).isLt
  have hi1 : (i 1).val < 4 := (i 1).isLt
  let t : Fin cfg0.N := ⟨(i 0).val / 512, by rw [show cfg0.N = 32 from N_0]; omega⟩
  obtain ⟨e0, e1, -⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 4 ≤ (i 1).val ∧ (i 1).val < win0_5.index t (1 : Fin 2) * 4 + 4; rw [e1]; omega

/-- THE ARRAY after the run is the score array of the arrays the region was entered with. -/
theorem final (c : Dev nD) : (dats m 0 c).arrAt 5 cfg0.N = entryScores m c :=
  (dats m 0 c).arrAt_eq_of_cover 5 (entryScores m c) (fun t _ => flushed_eq m c t) cover

/-- The kernel's run, read: the result array at the score function of the region-entry arrays, the arguments unchanged. -/
theorem run : θ_run defs (onTc (τ := τ) (main (F := Ideal))) ⟨m, fun _ => 0, ρ⟩ fun r => ∀ c : Dev nD,
      r.2.mem ((c : Thread nD τ).loc main_v63) = entryScores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Scores

end
-- ==== Proof.HostRows.lean ====
/-
  The four small arrays the host prepares for the region, as functions of the two literal-indicator matrices, and
  each read at an entry on the extended reals.

  From pos and neg (4096×40, entries 0 or 1: feature f is a positive / a negative literal of clause c) the host forms
    - the signed literal matrix pos − neg, rounded to the narrow format (no change on the extended reals);
    - the row of literal counts cnt(c) = (0 + Σ_f pos(f, c)) + (0 + Σ_f neg(f, c)) — each column sum starts from the zero
      word, which is the real 0;
    - the row of reciprocal counts: where cnt > 0, 1 / max(cnt, 1), else 0;
    - the row of offsets: (0 + Σ_f neg(f, c)) · (reciprocal count) + (where cnt > 0, 0, else 1);
    - the 40×4 segment matrix: the clause number c, divided by 10 rounding toward −∞ (a truncating division corrected by one
      where the signs differ and the remainder is not zero — never the case for 0 ≤ c < 40), compared with the action
      number a, as a 0/1 value: 1 exactly when c / 10 = a.
-/
import proofs.«145984_j39290360823856_2_alg».proof.Proof.Gen.KernelIdeal
import proofs.«145984_j39290360823856_2_alg».proof.Proof.ClauseAlgebra
import Idealize.ShloMosaic.PureOps.Ideal.Laws
import Idealize.ShloMosaic.Lib.ValueIdx
import Idealize.ShloMosaic.Lib.Pipeline.Value

open scoped BigOperators

noncomputable section

namespace Cert.KernelIdeal.HostRows

open Cert.KernelIdeal Cert.KernelIdeal.Gen Cert.ClauseScores
open Idealize.ShloMosaic Idealize.ShloMosaic.ValueIdx

/-- The scalar zero word and the scalar one word. -/
abbrev zeroS : FVec Ideal S_ .f32 := constant (F := Ideal) S_ .f32 0x00000000#32
abbrev oneS : FVec Ideal S_ .f32 := constant (F := Ideal) S_ .f32 0x3F800000#32

/-- The column sums of a 4096×40 matrix, as a 1×40 row. -/
def colSumRow (Y : FVec Ideal S4096x40 .f32) : FVec Ideal S1x40 .f32 :=
  broadcastInDim S1x40 ![1] bcast_S40_S1x40_1 (Host.reduceAdd Y zeroS reducesTo_S4096x40_S40_d0 h_S_)

/-- The literal counts. -/
def countRow (P N : FVec Ideal S4096x40 .f32) : FVec Ideal S1x40 .f32 := addf (colSumRow P) (colSumRow N)

/-- The reciprocal counts. -/
def invRow (P N : FVec Ideal S4096x40 .f32) : FVec Ideal S1x40 .f32 :=
  select (cmpf .ogt (countRow P N) (broadcastInDim S1x40 ![] bcast_S_S1x40 zeroS))
    (Host.divf (broadcastInDim S1x40 ![] bcast_S_S1x40 oneS) (maximumf (countRow P N) (broadcastInDim S1x40 ![] bcast_S_S1x40 oneS)))
    (broadcastInDim S1x40 ![] bcast_S_S1x40 (id zeroS))

/-- The offsets. -/
def offRow (P N : FVec Ideal S4096x40 .f32) : FVec Ideal S1x40 .f32 :=
  addf (mulf (colSumRow N) (invRow P N))
    (id (select (cmpf .ogt (countRow P N) (broadcastInDim S1x40 ![] bcast_S_S1x40 zeroS))
      (broadcastInDim S1x40 ![] bcast_S_S1x40 zeroS) (broadcastInDim S1x40 ![] bcast_S_S1x40 oneS)))

/-- The signed literal matrix. -/
def litMat (P N : FVec Ideal S4096x40 .f32) : FVec Ideal S4096x40 .bf16 := truncf .bf16 (subf P N) bitsLt_bf16_f32

/-- The clause number divided by ten, rounding toward −∞, as the host spells it. -/
def clauseGroup : IVec S40x4 32 :=
  select
    (andi
      (cmpi .ne (signi (iotaInDim S40x4 32 0)) (broadcastInDim S40x4 ![] bcast_S_S40x4 (signi (id (constantI S_ 32 10#32)))))
      (cmpi .ne (Host.remsi (iotaInDim S40x4 32 0) (broadcastInDim S40x4 ![] bcast_S_S40x4 (id (constantI S_ 32 10#32))))
        (broadcastInDim S40x4 ![] bcast_S_S40x4 (constantI S_ 32 0#32))))
    (subi (Host.divsi (iotaInDim S40x4 32 0) (broadcastInDim S40x4 ![] bcast_S_S40x4 (id (constantI S_ 32 10#32))))
      (broadcastInDim S40x4 ![] bcast_S_S40x4 (constantI S_ 32 1#32)))
    (Host.divsi (iotaInDim S40x4 32 0) (broadcastInDim S40x4 ![] bcast_S_S40x4 (id (constantI S_ 32 10#32))))

/-- Whether clause c belongs to action a, as a bit. -/
def segBits : IVec S40x4 1 := cmpi .eq clauseGroup (iotaInDim S40x4 32 1)

/-- The segment matrix. -/
def segMat : FVec Ideal S40x4 .bf16 := uitofp .bf16 segBits

/-! ## Read at an entry -/

theorem zero_row_apply (i : S1x40.Idx) : broadcastInDim S1x40 ![] bcast_S_S1x40 zeroS i = 0 :=
  Ideal.ofBits_zero_f32

theorem one_row_apply (i : S1x40.Idx) : broadcastInDim S1x40 ![] bcast_S_S1x40 oneS i = 1 := one_f32

/-- A column sum: the zero word plus the sum down the column. -/
theorem colSumRow_apply (Y : FVec Ideal S4096x40 .f32) (k : Fin 40) :
    colSumRow Y (ix2 0 k) = 0 + ∑ f : Fin 4096, Y (ix2 f k) := by
  unfold colSumRow
  rw [broadcastInDim_apply _ bcast_S40_S1x40_1 _ (ix2 0 k) (ix1 k) (fun a => match a with
    | ⟨0, _⟩ => by show k.val = if (40 : Nat) = 1 then 0 else k.val; rw [if_neg (by decide)])]
  simp only [Host.reduceAdd, Ideal.hostReduceAdd_def]
  rw [Ideal.hostReduceAdd_single reducesTo_S4096x40_S40_d0 (by decide)]
  refine congrArg₂ (· + ·) Ideal.ofBits_zero_f32 (Finset.sum_congr rfl fun f _ => ?_)
  exact congrArg Y (funext fun a => Fin.ext (by match a with | ⟨0, _⟩ => rfl | ⟨1, _⟩ => rfl))

theorem countRow_apply (P N : FVec Ideal S4096x40 .f32) (k : Fin 40) :
    countRow P N (ix2 0 k) = (0 + ∑ f : Fin 4096, P (ix2 f k)) + (0 + ∑ f : Fin 4096, N (ix2 f k)) := by
  unfold countRow
  rw [addf_apply, colSumRow_apply, colSumRow_apply]

theorem invRow_apply (P N : FVec Ideal S4096x40 .f32) (k : Fin 40) :
    invRow P N (ix2 0 k) = invCount (countRow P N (ix2 0 k)) := by
  show Scalar.select (Ideal.cmp .ogt (countRow P N (ix2 0 k)) (broadcastInDim S1x40 ![] bcast_S_S1x40 zeroS (ix2 0 k)))
      (Ideal.div (broadcastInDim S1x40 ![] bcast_S_S1x40 oneS (ix2 0 k))
        (max (countRow P N (ix2 0 k)) (broadcastInDim S1x40 ![] bcast_S_S1x40 oneS (ix2 0 k))))
      (broadcastInDim S1x40 ![] bcast_S_S1x40 zeroS (ix2 0 k)) = _
  rw [zero_row_apply, one_row_apply, select_gt_zero]
  rfl

theorem offRow_apply (P N : FVec Ideal S4096x40 .f32) (k : Fin 40) :
    offRow P N (ix2 0 k)
      = colSumRow N (ix2 0 k) * invCount (countRow P N (ix2 0 k)) + emptyValue (countRow P N (ix2 0 k)) := by
  show colSumRow N (ix2 0 k) * invRow P N (ix2 0 k)
      + Scalar.select (Ideal.cmp .ogt (countRow P N (ix2 0 k)) (broadcastInDim S1x40 ![] bcast_S_S1x40 zeroS (ix2 0 k)))
          (broadcastInDim S1x40 ![] bcast_S_S1x40 zeroS (ix2 0 k)) (broadcastInDim S1x40 ![] bcast_S_S1x40 oneS (ix2 0 k)) = _
  rw [invRow_apply, zero_row_apply, one_row_apply, select_gt_zero]
  rfl

theorem litMat_apply (P N : FVec Ideal S4096x40 .f32) (i : S4096x40.Idx) : litMat P N i = P i - N i := rfl

/-- For the forty clauses and the four actions, decided: the bit is set exactly when c / 10 = a. -/
theorem segBits_apply : ∀ (k : Fin 40) (a : Fin 4), segBits (ix2 k a) = if k.val / 10 = a.val then 1#1 else 0#1 := by
  decide +kernel

theorem segMat_apply (k : Fin 40) (a : Fin 4) : segMat (ix2 k a) = if k.val / 10 = a.val then (1 : EReal) else 0 := by
  show (((segBits (ix2 k a)).toNat : ℝ) : EReal) = _
  rw [segBits_apply]
  split_ifs <;> simp

end Cert.KernelIdeal.HostRows

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.HostInputs.lean ====
/-
  The arrays the region is entered with, read off the host operations that precede it.

  The host computes, from the clause weights, the mask logits, the noise and the temperature, the soft ternary weight
  w = tanh(weights / (T + ε)) · σ((log(u + ε) − log(1 − u + ε) + logits) / (T + ε)) and from it the two indicator matrices
  pos = [|w| > 10⁻⁶ and w > 0], neg = [|w| > 10⁻⁶ and not w > 0]. The reference computes the same two matrices by the same
  operations in the same order, so they are carried here as the reference's own stages; nothing of w is ever opened. The
  four arrays the region stages besides the features are the functions of pos and neg that HostRows.lean names.
-/
import proofs.«145984_j39290360823856_2_alg».proof.Proof.Gen.KernelIdeal.Frame
import proofs.«145984_j39290360823856_2_alg».proof.Proof.HostRows
import proofs.«145984_j39290360823856_2_alg».proof.Proof.RefRead
import proofs.«145984_j39290360823856_2_alg».proof.Proof.LibTypedRefs
import Idealize.ShloMosaic.Lib.StableHlo.Run

noncomputable section

namespace Cert.KernelIdeal.HostInputs

open Cert.KernelIdeal Cert.KernelIdeal.Gen Cert.KernelIdeal.HostRows
open Idealize.ShloMosaic Idealize.ShloMosaic.TcCoe Idealize.SL.Sem Idealize.ShloMosaic.StableHlo

variable (m : (ℓ : Loc nD τ sig) → Buf (Elt Ideal) ℓ)

/-- The positive-literal indicators the region's host prefix computes are the reference's stage of the same name. -/
theorem pos_eq (c : Dev nD) :
    (V m c main_v30 : S4096x40.Idx → EReal)
      = Cert.ReferenceIdeal.ReadP.val_main_v30 (F := Ideal) (m ((c.tc : Thread nD τ).loc main_arg1)) (m ((c.tc : Thread nD τ).loc main_arg2))
          (m ((c.tc : Thread nD τ).loc main_arg3)) (m ((c.tc : Thread nD τ).loc main_arg4)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The negative-literal indicators likewise. -/
theorem neg_eq (c : Dev nD) :
    (V m c main_v35 : S4096x40.Idx → EReal)
      = Cert.ReferenceIdeal.ReadP.val_main_v35 (F := Ideal) (m ((c.tc : Thread nD τ).loc main_arg1)) (m ((c.tc : Thread nD τ).loc main_arg2))
          (m ((c.tc : Thread nD τ).loc main_arg3)) (m ((c.tc : Thread nD τ).loc main_arg4)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The signed literal matrix the region stages. -/
theorem literals_eq (c : Dev nD) :
    (V m c main_v57 : S4096x40.Idx → EReal) = litMat (V m c main_v30) (V m c main_v35) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The reciprocal counts the region stages. -/
theorem invcount_eq (c : Dev nD) :
    (V m c main_v50 : S1x40.Idx → EReal) = invRow (V m c main_v30) (V m c main_v35) := by
  dsimp only [V]
  simp only [hostOps0, hostOps0_1, hostOps0_2, hostOps0_3, hostOps0_4, hostOps0_5, hostOps0_6, List.flatten_cons,
    List.flatten_nil, List.append_nil, List.cons_append, List.nil_append]
  after_results_simp
  simp only [Cert.Lib.TypedRefs.ofBuf_toBuf]
  rfl

set_option maxHeartbeats 4000000 in
/-- The offsets the region stages. -/
theorem offset_eq (c : Dev nD) :
    (V m c main_v56 : S1x40.Idx → EReal) = offRow (V m c main_v30) (V m c main_v35) := by
  dsimp only [V]
  simp only [hostOps0, hostOps0_1, hostOps0_2, hostOps0_3, hostOps0_4, hostOps0_5, hostOps0_6, List.flatten_cons,
    List.flatten_nil, List.append_nil, List.cons_append, List.nil_append]
  after_results_simp
  simp only [Cert.Lib.TypedRefs.ofBuf_toBuf]
  rfl

/-- The segment matrix the region stages. -/
theorem segment_eq (c : Dev nD) : (V m c main_v62 : S40x4.Idx → EReal) = segMat := by
  dsimp only [V]
  simp only [hostOps0, hostOps0_1, hostOps0_2, hostOps0_3, hostOps0_4, hostOps0_5, hostOps0_6, List.flatten_cons,
    List.flatten_nil, List.append_nil, List.cons_append, List.nil_append]
  after_results_simp
  simp only [Cert.Lib.TypedRefs.ofBuf_toBuf]
  rfl

end Cert.KernelIdeal.HostInputs

end
-- ==== Proof.RefScores.lean ====
/-
  The reference's result, entry by entry, on the extended reals.

  With P and N the two indicator matrices (the reference's stages %30 and %35, never opened here), the reference computes
  for row r and clause k the literal count, the literals' total, divides the total by max(count, 1) and selects 1 for an
  empty clause; it then re-shapes the 16384×40 array of satisfactions to 16384×4×10 (entry (r, a, j) is entry
  (r, 10·a + j)) and sums along the last axis from the zero word. Read through the generated one-operation lemmas, the
  result at (r, a) is `meanScoreAt` of the features, P and N.
-/
import proofs.«145984_j39290360823856_2_alg».proof.Proof.RefRead
import proofs.«145984_j39290360823856_2_alg».proof.Proof.ScoreSpec
import Idealize.ShloMosaic.Lib.ValueIdx
import Idealize.ShloMosaic.PureOps.Ideal.Laws

open scoped BigOperators

noncomputable section

namespace Cert.ReferenceIdeal.Scores

open Cert.ReferenceIdeal Cert.ReferenceIdeal.Gen Cert.ReferenceIdeal.ReadP Cert.ClauseScores
open Idealize.ShloMosaic Idealize.ShloMosaic.ValueIdx

variable (x0 : (⟨S16384x4096, .f32⟩ : BufTy).Contents (Elt Ideal)) (x1 x2 x3 : (⟨S4096x40, .f32⟩ : BufTy).Contents (Elt Ideal))
  (x4 : (⟨S_, .f32⟩ : BufTy).Contents (Elt Ideal))

/-- The literal count of clause k: the two column sums, each from the zero word. -/
theorem count_entry (k : Fin 40) :
    val_main_v43 (F := Ideal) x1 x2 x3 x4 (ix1 k)
      = (0 + ∑ f : Fin 4096, val_main_v30 (F := Ideal) x1 x2 x3 x4 (ix2 f k))
        + (0 + ∑ f : Fin 4096, val_main_v35 (F := Ideal) x1 x2 x3 x4 (ix2 f k)) := by
  rw [val_main_v43_apply, val_main_v41_apply, val_main_v42_apply]
  have e1 : ∀ f : Fin 4096, idx_main_v41 (ix1 k) f = ix2 f k := fun f =>
    funext fun a => Fin.ext (by match a with | ⟨0, _⟩ => rfl | ⟨1, _⟩ => rfl)
  have e2 : ∀ f : Fin 4096, idx_main_v42 (ix1 k) f = ix2 f k := fun f =>
    funext fun a => Fin.ext (by match a with | ⟨0, _⟩ => rfl | ⟨1, _⟩ => rfl)
  simp only [e1, e2]
  show (Ideal.ofBits .f32 0x00000000#32 + _) + (Ideal.ofBits .f32 0x00000000#32 + _) = _
  rw [Ideal.ofBits_zero_f32]

/-- The literals' total of clause k on row r: the features against P plus one-minus-the-features against N. -/
theorem total_entry (r : Fin 16384) (k : Fin 40) :
    val_main_v40 (F := Ideal) x0 x1 x2 x3 x4 (ix2 r k)
      = (∑ f : Fin 4096, x0 (ix2 r f) * val_main_v30 (F := Ideal) x1 x2 x3 x4 (ix2 f k))
        + ∑ f : Fin 4096, ((1 : EReal) - x0 (ix2 r f)) * val_main_v35 (F := Ideal) x1 x2 x3 x4 (ix2 f k) := by
  rw [val_main_v40_apply, val_main_v36_apply, val_main_v39_apply]
  have el : ∀ f : Fin 4096, lidx_main_v36 (ix2 r k) f = ix2 r f := fun f =>
    funext fun a => Fin.ext (by match a with | ⟨0, _⟩ => rfl | ⟨1, _⟩ => rfl)
  have er : ∀ f : Fin 4096, ridx_main_v36 (ix2 r k) f = ix2 f k := fun f =>
    funext fun a => Fin.ext (by match a with | ⟨0, _⟩ => rfl | ⟨1, _⟩ => rfl)
  have el' : ∀ f : Fin 4096, lidx_main_v39 (ix2 r k) f = ix2 r f := fun f =>
    funext fun a => Fin.ext (by match a with | ⟨0, _⟩ => rfl | ⟨1, _⟩ => rfl)
  have er' : ∀ f : Fin 4096, ridx_main_v39 (ix2 r k) f = ix2 f k := fun f =>
    funext fun a => Fin.ext (by match a with | ⟨0, _⟩ => rfl | ⟨1, _⟩ => rfl)
  simp only [el, er, el', er', val_main_v38_apply, val_main_v37_apply, val_main_cst_9_apply]
  show (∑ f : Fin 4096, _) + (∑ f : Fin 4096, (Ideal.ofBits .f32 0x3F800000#32 - x0 (ix2 r f)) * _) = _
  rw [one_f32]

/-- The divisor of clause k: the larger of its literal count and 1, the same on every row. -/
theorem divisor_entry (r : Fin 16384) (k : Fin 40) :
    val_main_v49 (F := Ideal) x1 x2 x3 x4 (ix2 r k) = max (val_main_v43 (F := Ideal) x1 x2 x3 x4 (ix1 k)) 1 := by
  rw [val_main_v49_apply, val_main_v48_apply, val_main_v47_apply, val_main_v46_apply, val_main_cst_13_apply]
  have e : idx_main_v48 (idx_main_v49 (ix2 r k)) = ix1 k :=
    funext fun a => Fin.ext (by match a with | ⟨0, _⟩ => rfl)
  rw [e]
  show max _ (Ideal.ofBits .f32 0x3F800000#32) = _
  rw [one_f32]

/-- The satisfaction of clause k on row r is the mean of its active literals, 1 for an empty clause. -/
theorem sat_entry (r : Fin 16384) (k : Fin 40) :
    val_main_v51 (F := Ideal) x0 x1 x2 x3 x4 (ix2 r k)
      = meanSat x0 (val_main_v30 (F := Ideal) x1 x2 x3 x4) (val_main_v35 (F := Ideal) x1 x2 x3 x4) r k := by
  rw [val_main_v51_apply, val_main_call0_v1_apply, val_main_v45_apply, val_main_v50_apply, val_main_call0_v2_apply,
    val_main_call0_v0_apply, val_main_cst_14_apply, val_main_v44_apply, val_main_cst_12_apply, total_entry, divisor_entry]
  have e : idx_main_call0_v1 (ix2 r k) = ix1 k :=
    funext fun a => Fin.ext (by match a with | ⟨0, _⟩ => rfl)
  rw [e, count_entry]
  unfold meanSat satMean
  rw [← select_gt_zero]
  show Scalar.select (Ideal.cmp .ogt _ (Ideal.ofBits .f32 0x00000000#32)) (Ideal.div _ _) (Ideal.ofBits .f32 0x3F800000#32) = _
  rw [Ideal.ofBits_zero_f32, one_f32]

/-- The reference's result at (r, a): from the zero word, the satisfactions of the ten clauses 10·a … 10·a + 9 on row r. -/
theorem score_entry (r : Fin 16384) (a : Fin 4) :
    val_main_v53 (F := Ideal) x0 x1 x2 x3 x4 (ix2 r a)
      = meanScoreAt x0 (val_main_v30 (F := Ideal) x1 x2 x3 x4) (val_main_v35 (F := Ideal) x1 x2 x3 x4) r a := by
  rw [val_main_v53_apply]
  unfold meanScoreAt
  refine congrArg₂ (· + ·) Ideal.ofBits_zero_f32 (Finset.sum_congr rfl fun j _ => ?_)
  rw [val_main_v52_apply]
  have ha := a.isLt
  have hj := j.isLt
  have e : idx_main_v52 (idx_main_v53 (ix2 r a) j) = ix2 r (clauseOf a j) :=
    funext fun b => Fin.ext (by
      match b with
      | ⟨0, _⟩ => show ((r.val * 4 + a.val) * 10 + j.val) / 40 = r.val; omega
      | ⟨1, _⟩ => show ((r.val * 4 + a.val) * 10 + j.val) % 40 = 10 * a.val + j.val; omega)
  rw [e, sat_entry]

end Cert.ReferenceIdeal.Scores

end
-- ==== Proof.ScoreBridge.lean ====
/-
  The kernel's score is the reference's, entry by entry, when the features are reals.

  Fix a row r and an action a. For each clause c the kernel's factor
      (Σ_f X(r, f) · D(f, c)) · I(0, c) + O(0, c)
  is, by what D, I and O are of the indicator matrices P and N, the folded satisfaction of the signed literal sum
  Σ_f X(r, f) · (P(f, c) − N(f, c)), the negative-literal count 0 + Σ_f N(f, c) and the literal count; all three are reals
  (X, P and N are), and the signed sum plus the negative count is the literals' total, so the factor is the mean
  satisfaction the reference computes. The product with the segment matrix then keeps exactly action a's ten clauses.
  Nothing here mentions a program.
-/
import proofs.«145984_j39290360823856_2_alg».proof.Proof.ScoreSpec
import proofs.«145984_j39290360823856_2_alg».proof.Proof.ClauseAlgebra
import proofs.«145984_j39290360823856_2_alg».proof.Proof.LibIdealSums
import Idealize.ShloMosaic.Lib.ValueIdx

open scoped BigOperators

noncomputable section

namespace Cert.ClauseScores

open Idealize.ShloMosaic Idealize.ShloMosaic.ValueIdx Cert.Lib.IdealSums

/-- One clause: the kernel's factor is the mean satisfaction. -/
theorem factor_eq_meanSat (X : (⟨2, ![16384, 4096]⟩ : Shape).Idx → EReal) (P N D : (⟨2, ![4096, 40]⟩ : Shape).Idx → EReal)
    (I O : (⟨2, ![1, 40]⟩ : Shape).Idx → EReal)
    (hX : ∀ i, IsReal (X i)) (hP : ∀ i, IsReal (P i)) (hN : ∀ i, IsReal (N i))
    (hD : ∀ (f : Fin 4096) (k : Fin 40), D (ix2 f k) = P (ix2 f k) - N (ix2 f k))
    (hI : ∀ k : Fin 40, I (ix2 0 k)
      = invCount ((0 + ∑ f : Fin 4096, P (ix2 f k)) + (0 + ∑ f : Fin 4096, N (ix2 f k))))
    (hO : ∀ k : Fin 40, O (ix2 0 k)
      = (0 + ∑ f : Fin 4096, N (ix2 f k)) * invCount ((0 + ∑ f : Fin 4096, P (ix2 f k)) + (0 + ∑ f : Fin 4096, N (ix2 f k)))
        + emptyValue ((0 + ∑ f : Fin 4096, P (ix2 f k)) + (0 + ∑ f : Fin 4096, N (ix2 f k))))
    (r : Fin 16384) (k : Fin 40) :
    (∑ f : Fin 4096, X (ix2 r f) * D (ix2 f k)) * I (ix2 0 k) + O (ix2 0 k) = meanSat X P N r k := by
  rw [hI, hO]
  simp only [hD]
  unfold meanSat
  refine satFolded_eq_satMean (num := ∑ f : Fin 4096, X (ix2 r f) * (P (ix2 f k) - N (ix2 f k)))
    (bias := 0 + ∑ f : Fin 4096, N (ix2 f k)) ?_ ?_ ?_ ?_
  · exact IsReal.sum _ fun f _ => (hX _).mul ((hP _).sub (hN _))
  · exact isReal_zero.add (IsReal.sum _ fun f _ => hN _)
  · exact (isReal_zero.add (IsReal.sum _ fun f _ => hP _)).add (isReal_zero.add (IsReal.sum _ fun f _ => hN _))
  · choose x hx using hX
    choose p hp using hP
    choose n hn using hN
    simp only [hx, hp, hn]
    exact signed_add_bias (fun f => x (ix2 r f)) (fun f => p (ix2 f k)) (fun f => n (ix2 f k))

/-- A row's score for an action, the kernel's way and the reference's way. -/
theorem scoreAt_eq_meanScoreAt (X : (⟨2, ![16384, 4096]⟩ : Shape).Idx → EReal) (P N D : (⟨2, ![4096, 40]⟩ : Shape).Idx → EReal)
    (I O : (⟨2, ![1, 40]⟩ : Shape).Idx → EReal) (Sg : (⟨2, ![40, 4]⟩ : Shape).Idx → EReal)
    (hX : ∀ i, IsReal (X i)) (hP : ∀ i, IsReal (P i)) (hN : ∀ i, IsReal (N i))
    (hD : ∀ (f : Fin 4096) (k : Fin 40), D (ix2 f k) = P (ix2 f k) - N (ix2 f k))
    (hI : ∀ k : Fin 40, I (ix2 0 k)
      = invCount ((0 + ∑ f : Fin 4096, P (ix2 f k)) + (0 + ∑ f : Fin 4096, N (ix2 f k))))
    (hO : ∀ k : Fin 40, O (ix2 0 k)
      = (0 + ∑ f : Fin 4096, N (ix2 f k)) * invCount ((0 + ∑ f : Fin 4096, P (ix2 f k)) + (0 + ∑ f : Fin 4096, N (ix2 f k)))
        + emptyValue ((0 + ∑ f : Fin 4096, P (ix2 f k)) + (0 + ∑ f : Fin 4096, N (ix2 f k))))
    (hS : ∀ (k : Fin 40) (a : Fin 4), Sg (ix2 k a) = if k.val / 10 = a.val then (1 : EReal) else 0)
    (r : Fin 16384) (a : Fin 4) :
    scoreAt X D I O Sg r a = meanScoreAt X P N r a := by
  unfold scoreAt meanScoreAt
  rw [zero_add]
  let s : ℕ → EReal := fun n => if h : n < 40 then meanSat X P N r ⟨n, h⟩ else 0
  have hs : ∀ k : Fin 40, s k.val = meanSat X P N r k := fun k => dif_pos k.isLt
  have e1 : ∀ k : Fin 40, ((∑ f : Fin 4096, X (ix2 r f) * D (ix2 f k)) * I (ix2 0 k) + O (ix2 0 k)) * Sg (ix2 k a)
      = s k.val * (if k.val / 10 = a.val then (1 : EReal) else 0) := fun k => by
    rw [factor_eq_meanSat X P N D I O hX hP hN hD hI hO r k, hS, hs]
  rw [Finset.sum_congr rfl fun k _ => e1 k, segment_sum s a]
  exact Finset.sum_congr rfl fun j _ => hs (clauseOf a j)

end Cert.ClauseScores

end
-- ==== Proof.KernelVsReference.lean ====
/-
  The two programs' result arrays are one array, when the features are reals.

  The kernel's result is `scores` of the arrays its region is entered with: the features as launched, and the four small
  arrays that are the functions of the indicator matrices pos and neg that HostRows.lean reads entry by entry. The
  reference's result at (r, a) is `meanScoreAt` of the features and of its own pos and neg, which are the same two
  matrices. Entry by entry the two agree (ScoreBridge.lean); pos and neg take the values 0 and 1 only, as conversions of a
  bit, so they are reals whatever the weights are.
-/
import proofs.«145984_j39290360823856_2_alg».proof.Proof.KernelArray
import proofs.«145984_j39290360823856_2_alg».proof.Proof.HostInputs
import proofs.«145984_j39290360823856_2_alg».proof.Proof.RefScores
import proofs.«145984_j39290360823856_2_alg».proof.Proof.ScoreBridge

open scoped BigOperators

noncomputable section

namespace Cert.KernelIdeal.Bridge

open Cert.KernelIdeal Cert.KernelIdeal.Gen Cert.KernelIdeal.HostRows Cert.KernelIdeal.HostInputs Cert.ClauseScores
open Idealize.ShloMosaic Idealize.ShloMosaic.TcCoe Idealize.SL.Sem Idealize.ShloMosaic.ValueIdx Cert.Lib.IdealSums

variable (m : (ℓ : Loc nD τ sig) → Buf (Elt Ideal) ℓ)

/-- The indicator matrices are conversions of a bit: their entries are reals. -/
theorem pos_real (x1 x2 x3 : (⟨Cert.ReferenceIdeal.S4096x40, .f32⟩ : BufTy).Contents (Elt Ideal))
    (x4 : (⟨Cert.ReferenceIdeal.S_, .f32⟩ : BufTy).Contents (Elt Ideal)) (i : Cert.ReferenceIdeal.S4096x40.Idx) :
    IsReal (Cert.ReferenceIdeal.ReadP.val_main_v30 (F := Ideal) x1 x2 x3 x4 i) :=
  ⟨((Cert.ReferenceIdeal.ReadP.val_main_v29 (F := Ideal) x1 x2 x3 x4 i).toNat : ℝ), rfl⟩

theorem neg_real (x1 x2 x3 : (⟨Cert.ReferenceIdeal.S4096x40, .f32⟩ : BufTy).Contents (Elt Ideal))
    (x4 : (⟨Cert.ReferenceIdeal.S_, .f32⟩ : BufTy).Contents (Elt Ideal)) (i : Cert.ReferenceIdeal.S4096x40.Idx) :
    IsReal (Cert.ReferenceIdeal.ReadP.val_main_v35 (F := Ideal) x1 x2 x3 x4 i) :=
  ⟨((Cert.ReferenceIdeal.ReadP.val_main_v34 (F := Ideal) x1 x2 x3 x4 i).toNat : ℝ), rfl⟩

/-- The kernel's result array is the reference's result stage of the same arguments. -/
theorem scores_eq_reference (c : Dev nD)
    (hfin : ∀ i : S16384x4096.Idx, IsReal ((m ((c.tc : Thread nD τ).loc main_arg0) : S16384x4096.Idx → EReal) i)) :
    Cert.KernelIdeal.Scores.entryScores m c
      = Cert.ReferenceIdeal.ReadP.val_main_v53 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  funext i
  obtain ⟨r, a, rfl⟩ : ∃ (r : Fin 16384) (a : Fin 4), i = ix2 r a := ⟨i 0, i 1, eq_ix2 i⟩
  rw [Cert.ReferenceIdeal.Scores.score_entry]
  show scoreAt (V m c main_arg0) (V m c main_v57) (V m c main_v50) (V m c main_v56) (V m c main_v62) r a = _
  rw [V_main_arg0 m c]
  refine scoreAt_eq_meanScoreAt _ _ _ _ _ _ _ hfin (pos_real _ _ _ _) (neg_real _ _ _ _) ?_ ?_ ?_ ?_ r a
  · intro f k
    rw [literals_eq, pos_eq, neg_eq]
    rfl
  · intro k
    rw [invcount_eq, invRow_apply, countRow_apply, pos_eq, neg_eq]
  · intro k
    rw [offset_eq, offRow_apply, colSumRow_apply, countRow_apply, pos_eq, neg_eq]
  · intro k a'
    rw [segment_eq, segMat_apply]

end Cert.KernelIdeal.Bridge

end
-- ==== Proof.FiniteFeatures.lean ====
/-
  What the input check gives: every entry of the features is a real.

  The check is the conjunction of five "all |x| < +∞" tests, one per argument, each a reduction by `and` from the bit 1.
  That it comes out 1 makes each conjunct 1; the first, read back at one element, says that the element's absolute value
  is below +∞ as extended reals, so the element is neither infinity. Only the features' finiteness is needed: the other
  arguments enter the scores through comparisons only.
-/
import proofs.«145984_j39290360823856_2_alg».proof.Pre_finite_inputs
import proofs.«145984_j39290360823856_2_alg».proof.Proof.Gen.Pre_finite_inputs
import proofs.«145984_j39290360823856_2_alg».proof.Proof.LibIdealSums
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx Cert.Lib.IdealSums

/-- The scalar shape has one index. -/
instance : Subsingleton S_.Idx := ⟨fun a b => funext fun d => d.elim0⟩

/-- Under the input check every entry of the features is a real. -/
theorem features_real [Facts] (a0 : FVec Ideal S16384x4096 .f32) (a1 a2 a3 : FVec Ideal S4096x40 .f32) (a4 : FVec Ideal S_ .f32)
    (h : fn (F := Ideal) a0 a1 a2 a3 a4 = fun _ => 1#1) (i : S16384x4096.Idx) : IsReal (a0 i) := by
  have h0 := congrFun h ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  have h5 := Host.reduce_andi_all _ _ _ _ ix0 h4 i
  exact isReal_of_cmpf_abs (a0 i) h5

end Cert.Pre_finite_inputs.Finite

end
-- ==== Proof.lean ====
/-
  The certificate of the clause-satisfaction kernel against its reference.

  Both programs compute, from the clause weights, the mask logits, the noise and the temperature, the same two indicator
  matrices pos and neg (feature f is a positive / a negative active literal of clause c). The reference then takes, for
  every row x of features and every clause, the mean of the active literals — (x·pos + (1 − x)·neg) / max(count, 1), 1 for
  an empty clause — and sums the clauses of each action. The kernel multiplies the features by pos − neg, scales by the
  reciprocal count, adds the offset (count of negative literals)·(reciprocal count) + (1 for an empty clause), and sums the
  clauses of each action by a product with a 0/1 segment matrix, 512 rows at a time. On the extended reals the two agree
  when the features are finite — the law that joins them, Σ x (pos − neg) + Σ neg = Σ x pos + Σ (1 − x) neg with a common
  quotient, distributes factors over sums, which fails at infinities — and the input check says they are.

  The three frames: the two kernel programs' are generated; the reference's is its run with the result dropped. The
  idealization rewrote nothing, so `preserves` has nothing to state. `algebraic`: the kernel's result array is the score
  function of the arrays its region is entered with (KernelArray.lean), those arrays are read off the host operations
  (HostInputs.lean, HostRows.lean), the reference's result is read stage by stage (RefScores.lean), and the two are one
  array (ScoreBridge.lean, KernelVsReference.lean) under the input check (FiniteFeatures.lean).
-/
import proofs.«145984_j39290360823856_2_alg».proof.Defs
import proofs.«145984_j39290360823856_2_alg».proof.Proof.Gen.Kernel
import proofs.«145984_j39290360823856_2_alg».proof.Proof.Gen.Kernel.Frame
import proofs.«145984_j39290360823856_2_alg».proof.Proof.Gen.KernelIdeal
import proofs.«145984_j39290360823856_2_alg».proof.Proof.Gen.KernelIdeal.Frame
import proofs.«145984_j39290360823856_2_alg».proof.Proof.Gen.KernelIdeal.Value
import proofs.«145984_j39290360823856_2_alg».proof.Proof.Gen.ReferenceIdeal
import proofs.«145984_j39290360823856_2_alg».proof.Proof.Gen.Pre_finite_inputs
import proofs.«145984_j39290360823856_2_alg».proof.Proof.RefRun
import proofs.«145984_j39290360823856_2_alg».proof.Proof.RefRead
import proofs.«145984_j39290360823856_2_alg».proof.Proof.KernelArray
import proofs.«145984_j39290360823856_2_alg».proof.Proof.KernelVsReference
import proofs.«145984_j39290360823856_2_alg».proof.Proof.FiniteFeatures
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments, the kernel's result array and the reference's are one array: the score
    function of the region-entry arrays is the reference's result stage of the same arguments, the features being reals
    by the input check. -/
theorem algebraic : Cert.algebraic_KernelIdeal_ReferenceIdeal := by
  intro m ρ m' ρ' hpre hagree
  refine ⟨fun c => Cert.KernelIdeal.Scores.entryScores m c, Cert.KernelIdeal.Scores.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v53_eq, (hagree c).1, (hagree c).2.1, (hagree c).2.2.1, (hagree c).2.2.2.1,
    (hagree c).2.2.2.2]
  exact (Cert.KernelIdeal.Bridge.scores_eq_reference m c
    (Cert.Pre_finite_inputs.Finite.features_real _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
